-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x256 : Shape := ⟨2, ![262144, 256]⟩
abbrev S256x256 : Shape := ⟨2, ![256, 256]⟩
abbrev S256 : Shape := ⟨1, ![256]⟩
abbrev S_ : Shape := ⟨0, ![]⟩

class Facts : Prop where
  bcast_S_S262144x256 : S_.BroadcastsInDim S262144x256 (![] : Fin 0 → Fin S262144x256.rank)
  reducesTo_S262144x256_S_d0_1 : S262144x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S262144x256 .f32) (main_arg1 : FVec F S256x256 .f32) (main_arg2 : FVec F S256 .f32) (main_arg3 : FVec F S256 .f32) : IVec S_ 1 :=
  let main_v0 : FVec F S262144x256 .f32 := Host.absf main_arg0
  let main_cst : FVec F S_ .f32 := constant S_ .f32 0x7F800000#32
  let main_v1 : FVec F S262144x256 .f32 := broadcastInDim S262144x256 ![] bcast_S_S262144x256 main_cst
  let main_v2 : IVec S262144x256 1 := cmpf .olt main_v0 main_v1
  let main_c : IVec S_ 1 := constantI S_ 1 1#1
  let main_v3 : IVec S_ 1 := (fun x v => Host.reduce IntOp.andi x v reducesTo_S262144x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S262144x256 : Shape := ⟨2, ![262144, 256]⟩
abbrev S256x256 : Shape := ⟨2, ![256, 256]⟩
abbrev S256 : Shape := ⟨1, ![256]⟩
abbrev S1x256 : Shape := ⟨2, ![1, 256]⟩
abbrev S4096x256 : Shape := ⟨2, ![4096, 256]⟩

abbrev nBuf : Space → Nat
  | .hbm => 10
  | .vmem => 7
  | .smem => 0
  | _ => 0

abbrev bufTy : (tb : Table) → Fin (tcTables nBuf tb) → BufTy
  | .hbm, ⟨0, _⟩ => ⟨S262144x256, .f32⟩
  | .hbm, ⟨1, _⟩ => ⟨S256x256, .f32⟩
  | .hbm, ⟨2, _⟩ => ⟨S256, .f32⟩
  | .hbm, ⟨3, _⟩ => ⟨S256, .f32⟩
  | .hbm, ⟨4, _⟩ => ⟨S256x256, .bf16⟩
  | .hbm, ⟨5, _⟩ => ⟨S256, .i32⟩
  | .hbm, ⟨6, _⟩ => ⟨S1x256, .i32⟩
  | .hbm, ⟨7, _⟩ => ⟨S256, .i32⟩
  | .hbm, ⟨8, _⟩ => ⟨S1x256, .i32⟩
  | .hbm, ⟨9, _⟩ => ⟨S262144x256, .f32⟩
  | .local _ .vmem, ⟨0, _⟩ => ⟨S4096x256, .f32⟩
  | .local _ .vmem, ⟨1, _⟩ => ⟨S4096x256, .f32⟩
  | .local _ .vmem, ⟨2, _⟩ => ⟨S256x256, .bf16⟩
  | .local _ .vmem, ⟨3, _⟩ => ⟨S1x256, .i32⟩
  | .local _ .vmem, ⟨4, _⟩ => ⟨S1x256, .i32⟩
  | .local _ .vmem, ⟨5, _⟩ => ⟨S4096x256, .f32⟩
  | .local _ .vmem, ⟨6, _⟩ => ⟨S4096x256, .f32⟩
  | _, _ => ⟨S262144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bitsLt_bf16_f32 : FTy.bits .bf16 < FTy.bits .f32
  shapeCasts_S256_S1x256 : S256.ShapeCasts S1x256
  inb_S4096x256_S4096x256_0_0 : ∀ a, (![0, 0] : Fin 2 → Nat) a + S4096x256.size a ≤ S4096x256.size a
  h_S4096x256 : 0 < S4096x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  dot_S4096x256_S256x256_S4096x256_1_0_0_1_n_n_wf : DotDims.WF S4096x256 S256x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S262144x256.size a
  hwx0_0 : ∀ i : grid0.Coords, EltTy.bits .f32 = 32 ∨ (Rect.block (s := S262144x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .i32 = 32 ∨ (Rect.block (s := S1x256) S1x256.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .i32 = 32 ∨ (Rect.block (s := S1x256) S1x256.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x256.size a ≤ S262144x256.size a
  hwx0_4 : ∀ i : grid0.Coords, EltTy.bits .f32 = 32 ∨ (Rect.block (s := S262144x256) S4096x256.size (cc0_transform_4 i) (hinb0_4 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S4096x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S262144x256 : Shape := ⟨2, ![262144, 256]⟩
abbrev S256x256 : Shape := ⟨2, ![256, 256]⟩
abbrev S256 : Shape := ⟨1, ![256]⟩
abbrev S1x256 : Shape := ⟨2, ![1, 256]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S262144x256, .f32⟩
  | .hbm, ⟨1, _⟩ => ⟨S256x256, .f32⟩
  | .hbm, ⟨2, _⟩ => ⟨S256, .f32⟩
  | .hbm, ⟨3, _⟩ => ⟨S256, .f32⟩
  | .hbm, ⟨4, _⟩ => ⟨S262144x256, .f32⟩
  | .hbm, ⟨5, _⟩ => ⟨S262144x256, .i32⟩
  | .hbm, ⟨6, _⟩ => ⟨S256, .i32⟩
  | .hbm, ⟨7, _⟩ => ⟨S256, .i32⟩
  | .hbm, ⟨8, _⟩ => ⟨S1x256, .i32⟩
  | .hbm, ⟨9, _⟩ => ⟨S262144x256, .i32⟩
  | .hbm, ⟨10, _⟩ => ⟨S262144x256, .i32⟩
  | .hbm, ⟨11, _⟩ => ⟨S1x256, .i32⟩
  | .hbm, ⟨12, _⟩ => ⟨S262144x256, .i32⟩
  | .hbm, ⟨13, _⟩ => ⟨S262144x256, .i32⟩
  | .hbm, ⟨14, _⟩ => ⟨S_, .i32⟩
  | .hbm, ⟨15, _⟩ => ⟨S262144x256, .i32⟩
  | .hbm, ⟨16, _⟩ => ⟨S262144x256, .i32⟩
  | .hbm, ⟨17, _⟩ => ⟨S_, .i32⟩
  | .hbm, ⟨18, _⟩ => ⟨S262144x256, .i32⟩
  | .hbm, ⟨19, _⟩ => ⟨S262144x256, .i32⟩
  | .hbm, ⟨20, _⟩ => ⟨S262144x256, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S262144x256, .f32⟩
  | .hbm, ⟨25, _⟩ => ⟨S262144x256, .f32⟩
  | .hbm, ⟨26, _⟩ => ⟨S_, .f32⟩
  | .hbm, ⟨27, _⟩ => ⟨S262144x256, .f32⟩
  | .hbm, ⟨28, _⟩ => ⟨S262144x256, .f32⟩
  | .hbm, ⟨29, _⟩ => ⟨S_, .f32⟩
  | .hbm, ⟨30, _⟩ => ⟨S262144x256, .f32⟩
  | .hbm, ⟨31, _⟩ => ⟨S262144x256, .f32⟩
  | _, _ => ⟨S262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_v10 : Ref sig .tc := ⟨.hbm, 15, rfl⟩
abbrev main_v11 : Ref sig .tc := ⟨.hbm, 16, rfl⟩
abbrev main_c_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v15 : Ref sig .tc := ⟨.hbm, 28, rfl⟩
abbrev main_call1_cst : Ref sig .tc := ⟨.hbm, 29, rfl⟩
abbrev main_call1_v0 : Ref sig .tc := ⟨.hbm, 30, rfl⟩
abbrev main_v16 : Ref sig .tc := ⟨.hbm, 31, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  bcast_S_S262144x256 : S_.BroadcastsInDim S262144x256 (![] : Fin 0 → Fin S262144x256.rank)
  dot_S262144x256_S256x256_S262144x256_1_0_0_1_n_n_wf : DotDims.WF S262144x256 S256x256 S262144x256 [1] [0] [0] [1] [] []

variable [Facts₀]

def dot_S262144x256_S256x256_S262144x256_1_0_0_1_n_n : DotDims S262144x256 S256x256 S262144x256 where
  lhsContracting := [1]
  rhsContracting := [0]
  lhsNonContracting := [0]
  rhsNonContracting := [1]
  lhsBatch := []
  rhsBatch := []
  wf := dot_S262144x256_S256x256_S262144x256_1_0_0_1_n_n_wf

class Facts : Prop extends Facts₀ where

variable [Facts]
-- ==== Proof.Requant.lean ====
/-
  The function both programs compute, index by index, over the extended reals.

  For a row `n` of the features and an output channel `o`, the accumulated product
  `p = Σ_k x[n, k] · w[k, o]` is an extended real; the epilogue turns it into a 32-bit word (rounding toward zero), adds
  the channel's bias word, multiplies by the channel's scale word, adds the rounding offset 128, shifts right by eight
  places keeping the sign, reads the word back as a real, clamps it to [-128, 127] and then to [0, ∞). All of the integer
  steps are word arithmetic, the same on the vector unit and in the host program; none of them is opened here.
-/
import Idealize.ShloMosaic.PureOps.Ideal
import Idealize.ShloMosaic.PureOps.Ideal.Laws
import Idealize.ShloMosaic.Lib.ValueIdx

noncomputable section

namespace Cert.Requant

open Idealize.ShloMosaic Idealize.ShloMosaic.ValueIdx

/-- A signed shift right by eight places is one word whichever unit performs it: eight is below the lane width of 32,
    where every unit's shift is the arithmetic shift itself. -/
theorem shrsi_eight (u : ArithUnit) (x : BitVec 32) : IntOp.shrsi u x 8#32 = x.sshiftRight' 8#32 :=
  if_pos (by decide)

/-- One entry's epilogue from the accumulated product `p` and the channel's bias and scale WORDS:
    `max (min 127 (max (-128) ((((⌊p⌉₀ + b) · s + 128) >>ₛ 8) as a real))) 0`. -/
def requantWord (p : Ideal .f32) (b s : BitVec 32) : Ideal .f32 :=
  FloatOps.maximumf (F := Ideal)
    (FloatOps.minimumf (F := Ideal) (FloatOps.ofBits .f32 0x42FE0000#32)
      (FloatOps.maximumf (F := Ideal) (FloatOps.ofBits .f32 0xC3000000#32)
        (FloatOps.sitofp (F := Ideal) .f32
          ((IntOp.addi (IntOp.muli (IntOp.addi (FloatOps.fptosi (F := Ideal) 32 p) b) s) 128#32).sshiftRight' 8#32))))
    (FloatOps.ofBits .f32 0x00000000#32)

/-- THE RESULT ARRAY as one function of the four argument arrays: entry `(n, o)` is the epilogue of row `n` of the
    features against column `o` of the weights, with channel `o`'s bias and scale rounded toward zero to words. -/
def spec (x : FVec Ideal ⟨2, ![262144, 256]⟩ .f32) (w : FVec Ideal ⟨2, ![256, 256]⟩ .f32)
    (b s : FVec Ideal ⟨1, ![256]⟩ .f32) : FVec Ideal ⟨2, ![262144, 256]⟩ .f32 := fun i =>
  requantWord (∑ k : Fin 256, x (ix2 (i 0) k) * w (ix2 k (i 1)))
    (FloatOps.fptosi (F := Ideal) 32 (b (ix1 (i 1)))) (FloatOps.fptosi (F := Ideal) 32 (s (ix1 (i 1))))

end Cert.Requant

end
-- ==== Proof.RefSpec.lean ====
/-
  The reference, read one operation at a time, is the specification: its `dot_general` at `(n, o)` is the sum over `k` of
  `x[n, k] · w[k, o]`, its two broadcasts of the converted bias and scale read channel `o`, its shift by the constant
  eight is the arithmetic shift, and the clamps are the same three extrema in the same operand order.
-/
import proofs.«148364_j4939212390875_2_alg».proof.Proof.Gen.ReferenceIdeal.Read
import proofs.«148364_j4939212390875_2_alg».proof.Proof.Requant

noncomputable section

namespace Cert.RefSpec

open Cert.ReferenceIdeal Cert.ReferenceIdeal.Read Idealize.ShloMosaic Idealize.ShloMosaic.ValueIdx Cert.Requant

/-- The left factor of the `k`-th product at `i` sits in row `i 0`, column `k`. -/
theorem lidx_eq (i : S262144x256.Idx) (k : Fin 256) : lidx_main_v0 i k = ix2 (i 0) k :=
  funext fun a => Fin.ext (by match a with | ⟨0, _⟩ => rfl | ⟨1, _⟩ => rfl)

/-- The right factor sits in row `k`, column `i 1`. -/
theorem ridx_eq (i : S262144x256.Idx) (k : Fin 256) : ridx_main_v0 i k = ix2 k (i 1) :=
  funext fun a => Fin.ext (by match a with | ⟨0, _⟩ => rfl | ⟨1, _⟩ => rfl)

/-- The bias broadcast first to a row and then down the rows reads channel `i 1`. -/
theorem bias_idx_eq (i : S262144x256.Idx) : idx_main_v4 (idx_main_v5 i) = ix1 (i 1) :=
  funext fun a => Fin.ext (by match a with | ⟨0, _⟩ => rfl)

/-- So does the scale. -/
theorem scale_idx_eq (i : S262144x256.Idx) : idx_main_v7 (idx_main_v8 i) = ix1 (i 1) :=
  funext fun a => Fin.ext (by match a with | ⟨0, _⟩ => rfl)

/-- THE REFERENCE'S RESULT is `spec` of its four arguments. -/
theorem ref_eq (x0 : (⟨S262144x256, .f32⟩ : BufTy).Contents (Elt Ideal)) (x1 : (⟨S256x256, .f32⟩ : BufTy).Contents (Elt Ideal))
    (x2 x3 : (⟨S256, .f32⟩ : BufTy).Contents (Elt Ideal)) :
    val_main_v16 (F := Ideal) x0 x1 x2 x3 = spec x0 x1 x2 x3 := by
  funext i
  rw [val_main_v16_apply, val_main_v15_apply, val_main_call0_v4_apply, val_main_call0_v3_apply, val_main_cst_1_apply,
    val_main_call0_v2_apply, val_main_call0_v1_apply, val_main_call0_v0_apply, val_main_cst_apply,
    val_main_v14_apply, val_main_v13_apply, val_main_v12_apply, val_main_c_0_apply,
    val_main_v11_apply, val_main_v10_apply, val_main_c_apply, val_main_v9_apply,
    val_main_v8_apply, val_main_v7_apply, val_main_v3_apply, val_main_v6_apply,
    val_main_v5_apply, val_main_v4_apply, val_main_v2_apply, val_main_v1_apply, val_main_v0_apply,
    val_main_call1_v0_apply, val_main_call1_cst_apply, shrsi_eight, bias_idx_eq, scale_idx_eq]
  simp only [lidx_eq, ridx_eq]
  rfl

end Cert.RefSpec

end
-- ==== Proof.KernelEntry.lean ====
/-
  One entry of what the kernel body stores, read at a row `p` of the feature block and a channel `q`: the matrix unit's
  product into a zero accumulator is the plain sum over the 256 contracted positions of `x[p, k] · w[k, q]` (no rounding
  and no order at the extended reals; the change of float format on the way in is the identity), the [1, 256] bias and
  scale rows broadcast down the block read channel `q`, and everything after that is the epilogue on that one entry.
-/
import proofs.«148364_j4939212390875_2_alg».proof.Proof.Gen.KernelIdeal.Skeleton
import proofs.«148364_j4939212390875_2_alg».proof.Proof.Requant
import Idealize.ShloMosaic.Lib.Pipeline.Value
import Idealize.ShloMosaic.Lib.ValueIdx
import Idealize.ShloMosaic.PureOps.Ideal.Laws

noncomputable section

namespace Cert.KernelEntry

open Cert.KernelIdeal Cert.KernelIdeal.Gen Idealize.ShloMosaic Idealize.ShloMosaic.ValueIdx Cert.Requant

/-- The left operand's row coordinate of every product at output index `i` is `i`'s row. -/
theorem lhs_row (i : S4096x256.Idx) (r : dot_S4096x256_S256x256_S4096x256_1_0_0_1_n_n.contr.Idx) : (dot_S4096x256_S256x256_S4096x256_1_0_0_1_n_n.lhsIdx i r 0).val = (i 0).val := by
  unfold DotDims.lhsIdx
  rw [dif_neg (show ¬(0 : Fin S4096x256.rank) ∈ dot_S4096x256_S256x256_S4096x256_1_0_0_1_n_n.lhsBatch by decide),
    dif_pos (show (0 : Fin S4096x256.rank) ∈ dot_S4096x256_S256x256_S4096x256_1_0_0_1_n_n.lhsNonContracting by decide)]
  rfl

/-- The right operand's column coordinate is `i`'s column. -/
theorem rhs_col (i : S4096x256.Idx) (r : dot_S4096x256_S256x256_S4096x256_1_0_0_1_n_n.contr.Idx) : (dot_S4096x256_S256x256_S4096x256_1_0_0_1_n_n.rhsIdx i r 1).val = (i 1).val := by
  unfold DotDims.rhsIdx
  rw [dif_neg (show ¬(1 : Fin S256x256.rank) ∈ dot_S4096x256_S256x256_S4096x256_1_0_0_1_n_n.rhsBatch by decide),
    dif_pos (show (1 : Fin S256x256.rank) ∈ dot_S4096x256_S256x256_S4096x256_1_0_0_1_n_n.rhsNonContracting by decide)]
  rfl

/-- THE MATRIX UNIT'S PRODUCT into a zero accumulator, at row `p` and channel `q`: `Σ_k a[p, k] · b[k, q]`. -/
theorem matmul_at (a : FVec Ideal S4096x256 .bf16) (b : FVec Ideal S256x256 .bf16) (p : Fin 4096) (q : Fin 256) :
    matmul dot_S4096x256_S256x256_S4096x256_1_0_0_1_n_n none a b (constant (F := Ideal) S4096x256 .f32 0x00000000#32) (ix2 p q)
      = ∑ k : Fin 256, a (ix2 p k) * b (ix2 k q) := by
  simp only [matmul]
  rw [Ideal.matmul_constant_zero_apply, ← Equiv.sum_comp (contrEquiv1 dot_S4096x256_S256x256_S4096x256_1_0_0_1_n_n 256 rfl rfl).symm]
  refine Finset.sum_congr rfl fun k _ => ?_
  have hk := contrEquiv1_symm_val dot_S4096x256_S256x256_S4096x256_1_0_0_1_n_n 256 rfl rfl k
  have el : dot_S4096x256_S256x256_S4096x256_1_0_0_1_n_n.lhsIdx (ix2 p q) ((contrEquiv1 dot_S4096x256_S256x256_S4096x256_1_0_0_1_n_n 256 rfl rfl).symm k) = ix2 p k :=
    funext fun a => Fin.ext (by
      match a with
      | ⟨0, _⟩ => exact lhs_row _ _
      | ⟨1, _⟩ => exact (dot_S4096x256_S256x256_S4096x256_1_0_0_1_n_n.lhsIdx_val_of_single rfl _ _).trans hk)
  have er : dot_S4096x256_S256x256_S4096x256_1_0_0_1_n_n.rhsIdx (ix2 p q) ((contrEquiv1 dot_S4096x256_S256x256_S4096x256_1_0_0_1_n_n 256 rfl rfl).symm k) = ix2 k q :=
    funext fun a => Fin.ext (by
      match a with
      | ⟨0, _⟩ => exact (dot_S4096x256_S256x256_S4096x256_1_0_0_1_n_n.rhsIdx_val_of_single rfl _ _).trans hk
      | ⟨1, _⟩ => exact rhs_col _ _)
  rw [el, er]

/-- A [1, 256] row cast to its own shape and broadcast down the 4096 rows of the block reads channel `q` at `(p, q)`. -/
theorem row_at (x : Vec Ideal S1x256 .i32) (p : Fin 4096) (q : Fin 256) :
    broadcastTo S4096x256 (shapeCast S1x256 x shapeCasts_S1x256_S1x256) broadcasts_S1x256_S4096x256 (ix2 p q)
      = x (ix2 0 q) := by
  rw [shapeCast_self]
  exact broadcastTo_apply x broadcasts_S1x256_S4096x256 (ix2 p q) (ix2 0 q) (fun a => by
    match a with
    | ⟨0, _⟩ => rfl
    | ⟨1, _⟩ => rfl)

/-- THE BODY'S STORED VALUE at `(p, q)`, from the four loaded blocks: the epilogue of `Σ_k x[p, k] · w[k, q]` with the
    bias and scale words of channel `q`. -/
theorem pay_at (x0 : Vec Ideal S4096x256 .f32) (x1 : Vec Ideal S256x256 .bf16) (x2 x3 : Vec Ideal S1x256 .i32)
    (p : Fin 4096) (q : Fin 256) :
    k0_pay1 (F := Ideal) x0 x1 x2 x3 (ix2 p q)
      = requantWord (∑ k : Fin 256, x0 (ix2 p k) * x1 (ix2 k q)) (x2 (ix2 0 q)) (x3 (ix2 0 q)) := by
  have hm := matmul_at (truncf .bf16 x0 bitsLt_bf16_f32) (shapeCast S256x256 x1 shapeCasts_S256x256_S256x256) p q
  unfold k0_pay1 requantWord
  show FloatOps.maximumf (FloatOps.minimumf _ (FloatOps.maximumf _ (FloatOps.sitofp .f32 (IntOp.shrsi .vector
    (IntOp.addi (IntOp.muli (IntOp.addi (FloatOps.fptosi 32 (matmul _ none _ _ _ (ix2 p q)))
      (broadcastTo _ _ _ (ix2 p q))) (broadcastTo _ _ _ (ix2 p q))) 128#32) 8#32)))) _ = _
  rw [hm, row_at, row_at, shrsi_eight, shapeCast_self]
  rfl

end Cert.KernelEntry

end
-- ==== Proof.KernelArray.lean ====
/-
  From the blocks the 64 grid points write back to the whole result array.

  Grid point `t` stages rows `4096·t … 4096·t + 4095` of the features, the whole weight matrix (converted once, before the
  region, to the matrix unit's input format: no change of value at the extended reals) and the two [1, 256] rows of bias
  and scale words (the arguments rounded toward zero and given a leading unit axis, also before the region); it writes
  back rows `4096·t … 4096·t + 4095` of the result. Entry `(p, q)` of that block depends on row `4096·t + p` of the
  features, column `q` of the weights and channel `q` of bias and scale: it is the specification at `(4096·t + p, q)`.
  The 64 row blocks tile the 262144 rows, so the array after the run is the specification everywhere.
-/
import proofs.«148364_j4939212390875_2_alg».proof.Proof.Gen.KernelIdeal.Value
import proofs.«148364_j4939212390875_2_alg».proof.Proof.KernelEntry
import Idealize.ShloMosaic.Lib.Pipeline.Value
import Idealize.ShloMosaic.Lib.ValueLayout
import Idealize.ShloMosaic.Lib.StableHlo.Run

noncomputable section

namespace Cert.KernelArray

open Cert.KernelIdeal Cert.KernelIdeal.Gen Idealize.ShloMosaic Idealize.ShloMosaic.TcCoe Idealize.SL.Sem
open Idealize.ShloMosaic.ValueIdx Cert.Requant Cert.KernelEntry
open Idealize.ShloMosaic.Pipeline (Dat)

variable (m : (ℓ : Loc nD τ sig) → Buf (Elt Ideal) ℓ) (ρ : Dev nD → PrngReg)

/-- The four argument arrays as launched on core `c`: features, weights, bias, scale. -/
abbrev feats (c : Dev nD) : FVec Ideal S262144x256 .f32 := m ((c : Thread nD τ).loc main_arg0)
abbrev weights (c : Dev nD) : FVec Ideal S256x256 .f32 := m ((c : Thread nD τ).loc main_arg1)
abbrev bias (c : Dev nD) : FVec Ideal S256 .f32 := m ((c : Thread nD τ).loc main_arg2)
abbrev scale (c : Dev nD) : FVec Ideal S256 .f32 := m ((c : Thread nD τ).loc main_arg3)

/-! ## The arrays the host operations before the region leave -/

/-- The weights in the matrix unit's input format: the same extended reals. -/
theorem weights_at_entry (c : Dev nD) :
    @Eq (FVec Ideal S256x256 .bf16) (V m c main_v0) (truncf .bf16 (weights m c) bitsLt_bf16_f32) := by
  dsimp only [V, hostOps0]
  after_results <;> rfl

/-- The bias rounded toward zero to words, with a leading unit axis. -/
theorem bias_at_entry (c : Dev nD) :
    @Eq (IVec S1x256 32) (V m c main_v2) (shapeCast S1x256 (fptosi 32 (bias m c)) shapeCasts_S256_S1x256) := by
  dsimp only [V, hostOps0]
  after_results <;> rfl

/-- The scale likewise. -/
theorem scale_at_entry (c : Dev nD) :
    @Eq (IVec S1x256 32) (V m c main_v4) (shapeCast S1x256 (fptosi 32 (scale m c)) shapeCasts_S256_S1x256) := by
  dsimp only [V, hostOps0]
  after_results <;> rfl

/-! ## Where each window's block sits -/

theorem hz : (![0, 0] : Fin 2 → Nat) = fun _ => 0 := funext fun a => by fin_cases a <;> rfl

/-- The printed index maps, decided over the 64 grid points: the feature window and the result window sit at row block
    `t`, column block 0; the weight, bias and scale windows never move. -/
theorem idx_facts : ∀ t : Fin cfg0.N,
    win0_4.index t (0 : Fin 2) = t.val ∧ win0_4.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-! ## Each input block, read where the result block's entry needs it -/

/-- Entry `y` of the feature block at point `t` is the feature array at row `4096·t + y 0`, column `y 1`. -/
theorem feats_blk (c : Dev nD) (t : Fin cfg0.N) (y : S4096x256.Idx) (i : S262144x256.Idx)
    (h0 : (i 0).val = t.val * 4096 + (y 0).val) (h1 : (i 1).val = (y 1).val) :
    (iblk m c 0 t : Vec Ideal S4096x256 .f32) y = feats m c i := by
  obtain ⟨-, -, e0, e1, -⟩ := idx_facts t
  show V m c main_arg0 (((cfg0.win 0).blk t).view.emb y) = _
  rw [V_main_arg0]
  refine congrArg (feats m c) (funext fun a => Fin.ext ?_)
  match a with
  | ⟨0, _⟩ => show win0_0.index t (0 : Fin 2) * 4096 + 1 * (y 0).val = (i 0).val; omega
  | ⟨1, _⟩ => show win0_0.index t (1 : Fin 2) * 256 + 1 * (y 1).val = (i 1).val; omega

/-- The weight block at every point is the whole weight matrix. -/
theorem weights_blk (c : Dev nD) (t : Fin cfg0.N) (y : S256x256.Idx) :
    (iblk m c 1 t : Vec Ideal S256x256 .bf16) y = weights m c y := by
  obtain ⟨-, -, -, -, e0, e1, -⟩ := idx_facts t
  show V m c main_v0 (((cfg0.win 1).blk t).view.emb y) = _
  rw [weights_at_entry]
  show weights m c (((cfg0.win 1).blk t).view.emb y) = _
  refine congrArg (weights m c) (funext fun a => Fin.ext ?_)
  match a with
  | ⟨0, _⟩ => show win0_1.index t (0 : Fin 2) * 256 + 1 * (y 0).val = (y 0).val; omega
  | ⟨1, _⟩ => show win0_1.index t (1 : Fin 2) * 256 + 1 * (y 1).val = (y 1).val; omega

/-- The bias block at every point holds, at channel `q`, the bias of channel `q` rounded toward zero to a word. -/
theorem bias_blk (c : Dev nD) (t : Fin cfg0.N) (q : Fin 256) :
    (iblk m c 2 t : Vec Ideal S1x256 .i32) (ix2 0 q) = FloatOps.fptosi (F := Ideal) 32 (bias m c (ix1 q)) := by
  obtain ⟨-, -, -, -, -, -, e0, e1, -⟩ := idx_facts t
  show V m c main_v2 (((cfg0.win 2).blk t).view.emb (ix2 (0 : Fin 1) q)) = _
  rw [bias_at_entry]
  have he : ((cfg0.win 2).blk t).view.emb (ix2 (0 : Fin 1) q) = ix2 (0 : Fin 1) q :=
    funext fun a => Fin.ext (by
      match a with
      | ⟨0, _⟩ => show win0_2.index t (0 : Fin 2) * 1 + 1 * (0 : Nat) = (0 : Nat); omega
      | ⟨1, _⟩ => show win0_2.index t (1 : Fin 2) * 256 + 1 * q.val = q.val; omega)
  rw [he, shapeCast_a_1a_apply]
  rfl

/-- The scale block likewise. -/
theorem scale_blk (c : Dev nD) (t : Fin cfg0.N) (q : Fin 256) :
    (iblk m c 3 t : Vec Ideal S1x256 .i32) (ix2 0 q) = FloatOps.fptosi (F := Ideal) 32 (scale m c (ix1 q)) := by
  obtain ⟨-, -, -, -, -, -, -, -, e0, e1⟩ := idx_facts t
  show V m c main_v4 (((cfg0.win 3).blk t).view.emb (ix2 (0 : Fin 1) q)) = _
  rw [scale_at_entry]
  have he : ((cfg0.win 3).blk t).view.emb (ix2 (0 : Fin 1) q) = ix2 (0 : Fin 1) q :=
    funext fun a => Fin.ext (by
      match a with
      | ⟨0, _⟩ => show win0_3.index t (0 : Fin 2) * 1 + 1 * (0 : Nat) = (0 : Nat); omega
      | ⟨1, _⟩ => show win0_3.index t (1 : Fin 2) * 256 + 1 * q.val = q.val; omega)
  rw [he, shapeCast_a_1a_apply]
  rfl

/-! ## One stored entry against the specification -/

/-- Whatever four blocks the body loaded: if row `j 0` of the first is row `i 0` of `X`, column `j 1` of the second is
    column `i 1` of `W`, and channel `j 1` of the last two holds the words of `B` and `Sc` at channel `i 1`, then the
    stored entry at `j` is the specification of `X W B Sc` at `i`. -/
theorem entry_eq (x0 : Vec Ideal S4096x256 .f32) (x1 : Vec Ideal S256x256 .bf16) (x2 x3 : Vec Ideal S1x256 .i32)
    (X : FVec Ideal S262144x256 .f32) (W : FVec Ideal S256x256 .f32) (B Sc : FVec Ideal S256 .f32)
    (j : S4096x256.Idx) (i : S262144x256.Idx)
    (h0 : ∀ k : Fin 256, x0 (ix2 (j 0) k) = X (ix2 (i 0) k))
    (h1 : ∀ k : Fin 256, x1 (ix2 k (j 1)) = W (ix2 k (i 1)))
    (h2 : x2 (ix2 0 (j 1)) = FloatOps.fptosi (F := Ideal) 32 (B (ix1 (i 1))))
    (h3 : x3 (ix2 0 (j 1)) = FloatOps.fptosi (F := Ideal) 32 (Sc (ix1 (i 1)))) :
    k0_pay1 (F := Ideal) x0 x1 x2 x3 j = spec X W B Sc i := by
  refine (congrArg (k0_pay1 (F := Ideal) x0 x1 x2 x3) (eq_ix2 j)).trans ((pay_at x0 x1 x2 x3 (j 0) (j 1)).trans ?_)
  unfold spec
  rw [h2, h3]
  refine congrArg (fun z => requantWord z _ _) (Finset.sum_congr rfl fun k _ => ?_)
  rw [h0 k, h1 k]

/-! ## What a point writes back, the cover, the array after the run -/

/-- WHAT POINT `t` WRITES BACK is block `t` of the specification of the four arguments. -/
theorem flushed_eq (c : Dev nD) (t : Fin cfg0.N) :
    (dats m 0 c).flushed 4 t
      = ((cfg0.win 4).blk t).view.read (Elt Ideal) (spec (feats m c) (weights m c) (bias m c) (scale m c)) := by
  obtain ⟨e0, e1, -⟩ := idx_facts t
  rw [Cert.KernelIdeal.Value.flushed4]
  unfold out0_4
  rw [View.canon_unit_zero hz]
  simp only [View.ld_unit_zero (S := S4096x256) hz, View.ld_unit_zero (S := S256x256) hz,
    View.ld_unit_zero (S := S1x256) hz]
  funext j
  show k0_pay1 (F := Ideal) (iblk m c 0 t) (iblk m c 1 t) (iblk m c 2 t) (iblk m c 3 t) j
    = spec (feats m c) (weights m c) (bias m c) (scale m c) (((cfg0.win 4).blk t).view.emb j)
  have r0 : ((((cfg0.win 4).blk t).view.emb j : S262144x256.Idx) 0).val = t.val * 4096 + (j 0).val := by
    show win0_4.index t (0 : Fin 2) * 4096 + 1 * (j 0).val = _; omega
  have r1 : ((((cfg0.win 4).blk t).view.emb j : S262144x256.Idx) 1).val = (j 1).val := by
    show win0_4.index t (1 : Fin 2) * 256 + 1 * (j 1).val = _; omega
  refine entry_eq (iblk m c 0 t) (iblk m c 1 t) (iblk m c 2 t) (iblk m c 3 t)
    (feats m c) (weights m c) (bias m c) (scale m c) j (((cfg0.win 4).blk t).view.emb j) ?_ ?_ ?_ ?_
  · intro k
    exact feats_blk m c t (ix2 (j 0) k) (ix2 _ k) r0 rfl
  · intro k
    refine (weights_blk m c t (ix2 k (j 1))).trans (congrArg (weights m c) ?_)
    exact funext fun a => Fin.ext (by
      match a with
      | ⟨0, _⟩ => rfl
      | ⟨1, _⟩ => exact r1.symm)
  · refine (bias_blk m c t (j 1)).trans (congrArg (fun z => FloatOps.fptosi (F := Ideal) 32 (bias m c z)) ?_)
    exact funext fun a => Fin.ext (by match a with | ⟨0, _⟩ => exact r1.symm)
  · refine (scale_blk m c t (j 1)).trans (congrArg (fun z => FloatOps.fptosi (F := Ideal) 32 (scale m c z)) ?_)
    exact funext fun a => Fin.ext (by match a with | ⟨0, _⟩ => exact r1.symm)

/-- An index of the result array is in point `t`'s block iff each coordinate is in the block's range on its axis. -/
theorem mem_blk (t : Fin cfg0.N) (i : S262144x256.Idx) :
    i ∈ ((cfg0.win 4).blk t).view.set ↔ ∀ a : Fin 2, win0_4.index t a * S4096x256.size a ≤ (i a).val
      ∧ (i a).val < win0_4.index t a * S4096x256.size a + S4096x256.size a := by
  show i ∈ ((View.whole main_v5).slice (win0_4.rect t)).set ↔ _
  rw [View.set_slice_whole, Rect.mem_set_unit]
  exact Iff.rfl

/-- THE COVER: row `r` of the result lies in the block of point `r / 4096`. -/
theorem cover (i : S262144x256.Idx) :
    ∃ t : Fin cfg0.N, (cfg0.win 4).flush t = true ∧ i ∈ ((cfg0.win 4).blk t).view.set := by
  have hN : cfg0.N = 64 := N_0
  have hi0 : (i 0).val < 262144 := (i 0).isLt
  have hi1 : (i 1).val < 256 := (i 1).isLt
  have ht : (i 0).val / 4096 < cfg0.N := by rw [hN]; omega
  obtain ⟨e0, e1, -⟩ := idx_facts ⟨(i 0).val / 4096, ht⟩
  refine ⟨⟨(i 0).val / 4096, ht⟩, flush0_4 _, ?_⟩
  rw [mem_blk]
  intro a
  match a with
  | ⟨0, _⟩ =>
    show win0_4.index ⟨(i 0).val / 4096, ht⟩ (0 : Fin 2) * 4096 ≤ (i 0).val
      ∧ (i 0).val < win0_4.index ⟨(i 0).val / 4096, ht⟩ (0 : Fin 2) * 4096 + 4096
    rw [e0]
    show (i 0).val / 4096 * 4096 ≤ (i 0).val ∧ (i 0).val < (i 0).val / 4096 * 4096 + 4096
    omega
  | ⟨1, _⟩ =>
    show win0_4.index ⟨(i 0).val / 4096, ht⟩ (1 : Fin 2) * 256 ≤ (i 1).val
      ∧ (i 1).val < win0_4.index ⟨(i 0).val / 4096, ht⟩ (1 : Fin 2) * 256 + 256
    omega

/-- THE RESULT ARRAY after the run is the specification of the four arguments. -/
theorem final (c : Dev nD) :
    (dats m 0 c).arrAt 4 cfg0.N = spec (feats m c) (weights m c) (bias m c) (scale m c) :=
  (dats m 0 c).arrAt_eq_of_cover 4 (spec (feats m c) (weights m c) (bias m c) (scale m c))
    (fun t _ => flushed_eq m c t) cover

/-- The kernel's run, read: the result array at the specification, the arguments unchanged. -/
theorem run : θ_run defs (onTc (τ := τ) (main (F := Ideal))) ⟨m, fun _ => 0, ρ⟩ fun r => ∀ c : Dev nD,
      r.2.mem ((c : Thread nD τ).loc main_v5) = spec (feats m c) (weights m c) (bias m c) (scale m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.KernelArray

end
-- ==== Proof.lean ====
/-
  A per-point GEMM with a fixed-point requantisation epilogue, against its jnp reference, over the extended reals.

  Both programs compute, at row `n` and output channel `o`,
      max (min 127 (max (-128) (((⌊Σ_k x[n,k]·w[k,o]⌉₀ + ⌊bias[o]⌉₀) · ⌊scale[o]⌉₀ + 128) >>ₛ 8))) 0
  with `⌊·⌉₀` the rounding toward zero to a 32-bit word and the arithmetic in between on 32-bit words (`Requant.spec`).
  The kernel forms the product on the matrix unit from a 4096-row block of the features and the whole weight matrix and
  applies the epilogue in the body; the reference forms one whole `dot_general` and applies the epilogue array-wide. At
  the extended reals a product accumulated from zero is the plain finite sum whatever its order, the change of float format
  on the matrix unit's inputs is the identity, and the shift by the constant eight is the same word on either unit, so the
  two are one function of the arguments: no algebraic law beyond that is used and the finiteness of the inputs is never
  opened. The ideal pass rewrote nothing, so the kernel's idealisation is its own text.

  The frames of the two kernel programs and the kernel's block-by-block run are the generated ones; the reference's
  frame is its generated run with the result dropped.
-/
import proofs.«148364_j4939212390875_2_alg».proof.Defs
import proofs.«148364_j4939212390875_2_alg».proof.Proof.Gen.Kernel
import proofs.«148364_j4939212390875_2_alg».proof.Proof.Gen.Kernel.Skeleton
import proofs.«148364_j4939212390875_2_alg».proof.Proof.Gen.Kernel.Launch
import proofs.«148364_j4939212390875_2_alg».proof.Proof.Gen.Kernel.Points
import proofs.«148364_j4939212390875_2_alg».proof.Proof.Gen.Kernel.Frame
import proofs.«148364_j4939212390875_2_alg».proof.Proof.Gen.KernelIdeal
import proofs.«148364_j4939212390875_2_alg».proof.Proof.Gen.KernelIdeal.Skeleton
import proofs.«148364_j4939212390875_2_alg».proof.Proof.Gen.KernelIdeal.Launch
import proofs.«148364_j4939212390875_2_alg».proof.Proof.Gen.KernelIdeal.Points
import proofs.«148364_j4939212390875_2_alg».proof.Proof.Gen.KernelIdeal.Frame
import proofs.«148364_j4939212390875_2_alg».proof.Proof.Gen.ReferenceIdeal
import proofs.«148364_j4939212390875_2_alg».proof.Proof.Gen.Pre_finite_inputs
import proofs.«148364_j4939212390875_2_alg».proof.Proof.Gen.KernelIdeal.Value
import proofs.«148364_j4939212390875_2_alg».proof.Proof.Gen.ReferenceIdeal.Run
import proofs.«148364_j4939212390875_2_alg».proof.Proof.Gen.ReferenceIdeal.Read
import proofs.«148364_j4939212390875_2_alg».proof.Proof.Requant
import proofs.«148364_j4939212390875_2_alg».proof.Proof.RefSpec
import proofs.«148364_j4939212390875_2_alg».proof.Proof.KernelEntry
import proofs.«148364_j4939212390875_2_alg».proof.Proof.KernelArray
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Run from memories that agree on the four arguments, the kernel's result array ends at the specification of its
    arguments (the 64 row blocks, each the specification's block, tile the array) and the reference's at the same
    specification of its own (read one operation at a time): equal, element by element. -/
theorem algebraic : Cert.algebraic_KernelIdeal_ReferenceIdeal := by
  intro m ρ m' ρ' _ hagree
  refine ⟨fun c => Cert.Requant.spec (Cert.KernelArray.feats m c) (Cert.KernelArray.weights m c)
    (Cert.KernelArray.bias m c) (Cert.KernelArray.scale m c), Cert.KernelArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.RefSpec.ref_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
